-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)) (v1 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S64x128 .f32) (main_arg7 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1000000 32) (main_arg2 : FVec F S128x64 .f32) (main_arg3 : FVec F S64 .f32) (main_arg4 : FVec F S64x128 .f32) (main_arg5 : FVec F S128 .f32) (main_arg6 : FVec F S64x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S10000x128 : Shape := ⟨2, ![10000, 128]⟩
abbrev S10000x64 : Shape := ⟨2, ![10000, 64]⟩
abbrev S1100000x64 : Shape := ⟨2, ![1100000, 64]⟩
abbrev S1x64 : Shape := ⟨2, ![1, 64]⟩
abbrev S1100000x128 : Shape := ⟨2, ![1100000, 128]⟩
abbrev S1x128 : Shape := ⟨2, ![1, 128]⟩

abbrev nBuf : Space → Nat
  | .hbm => 108
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x64, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x64, .f32⟩
  | .hbm, ⟨58, _⟩ => ⟨S1100000x1, .f32⟩
  | .hbm, ⟨59, _⟩ => ⟨S1100000x64, .f32⟩
  | .hbm, ⟨60, _⟩ => ⟨S1100000x64, .f32⟩
  | .hbm, ⟨61, _⟩ => ⟨S_, .f32⟩
  | .hbm, ⟨62, _⟩ => ⟨S100000x64, .f32⟩
  | .hbm, ⟨63, _⟩ => ⟨S1100000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S100000x128, .f32⟩
  | .hbm, ⟨69, _⟩ => ⟨S_, .i32⟩
  | .hbm, ⟨70, _⟩ => ⟨S1100000, .i32⟩
  | .hbm, ⟨71, _⟩ => ⟨S1100000, .i1⟩
  | .hbm, ⟨72, _⟩ => ⟨S_, .i32⟩
  | .hbm, ⟨73, _⟩ => ⟨S1100000, .i32⟩
  | .hbm, ⟨74, _⟩ => ⟨S1100000, .i32⟩
  | .hbm, ⟨75, _⟩ => ⟨S1100000, .i32⟩
  | .hbm, ⟨76, _⟩ => ⟨S1100000x1, .i32⟩
  | .hbm, ⟨77, _⟩ => ⟨S1100000x128, .f32⟩
  | .hbm, ⟨78, _⟩ => ⟨S1100000x1, .f32⟩
  | .hbm, ⟨79, _⟩ => ⟨S1100000x128, .f32⟩
  | .hbm, ⟨80, _⟩ => ⟨S1100000x128, .f32⟩
  | .hbm, ⟨81, _⟩ => ⟨S_, .f32⟩
  | .hbm, ⟨82, _⟩ => ⟨S100000x128, .f32⟩
  | .hbm, ⟨83, _⟩ => ⟨S1100000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S1100000, .i32⟩
  | .hbm, ⟨91, _⟩ => ⟨S1100000, .i1⟩
  | .hbm, ⟨92, _⟩ => ⟨S_, .i32⟩
  | .hbm, ⟨93, _⟩ => ⟨S1100000, .i32⟩
  | .hbm, ⟨94, _⟩ => ⟨S1100000, .i32⟩
  | .hbm, ⟨95, _⟩ => ⟨S1100000, .i32⟩
  | .hbm, ⟨96, _⟩ => ⟨S1100000x1, .i32⟩
  | .hbm, ⟨97, _⟩ => ⟨S1100000x128, .f32⟩
  | .hbm, ⟨98, _⟩ => ⟨S1100000x1, .f32⟩
  | .hbm, ⟨99, _⟩ => ⟨S1100000x128, .f32⟩
  | .hbm, ⟨100, _⟩ => ⟨S1100000x128, .f32⟩
  | .hbm, ⟨101, _⟩ => ⟨S_, .f32⟩
  | .hbm, ⟨102, _⟩ => ⟨S100000x128, .f32⟩
  | .hbm, ⟨103, _⟩ => ⟨S1100000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x128, .f32⟩
  | .local _ .vmem, ⟨8, _⟩ => ⟨S10000x128, .f32⟩
  | .local _ .vmem, ⟨9, _⟩ => ⟨S10000x128, .f32⟩
  | .local _ .vmem, ⟨10, _⟩ => ⟨S10000x64, .f32⟩
  | .local _ .vmem, ⟨11, _⟩ => ⟨S10000x64, .f32⟩
  | .local _ .vmem, ⟨12, _⟩ => ⟨S64x128, .f32⟩
  | .local _ .vmem, ⟨13, _⟩ => ⟨S10000x128, .f32⟩
  | .local _ .vmem, ⟨14, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S10000x128_S128x64_S10000x64_1_0_0_1_n_n_wf : DotDims.WF S10000x128 S128x64 S10000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S10000x64_S64x128_S10000x128_1_0_0_1_n_n_wf : DotDims.WF S10000x64 S64x128 S10000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .f32 = 32 ∨ (Rect.block (s := S64x128) S64x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
abbrev S1x64 : Shape := ⟨2, ![1, 64]⟩
abbrev S1100000x128 : Shape := ⟨2, ![1100000, 128]⟩
abbrev S1x128 : Shape := ⟨2, ![1, 128]⟩

abbrev nBuf : Space → Nat
  | .hbm => 108
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S100000, .i32⟩
  | .hbm, ⟨9, _⟩ => ⟨S1x1000000, .i32⟩
  | .hbm, ⟨10, _⟩ => ⟨S1000000, .i32⟩
  | .hbm, ⟨11, _⟩ => ⟨S1100000, .i32⟩
  | .hbm, ⟨12, _⟩ => ⟨S1x1000000, .i32⟩
  | .hbm, ⟨13, _⟩ => ⟨S1000000, .i32⟩
  | .hbm, ⟨14, _⟩ => ⟨S1100000, .i32⟩
  | .hbm, ⟨15, _⟩ => ⟨S_, .f32⟩
  | .hbm, ⟨16, _⟩ => ⟨S1100000, .f32⟩
  | .hbm, ⟨17, _⟩ => ⟨S_, .f32⟩
  | .hbm, ⟨18, _⟩ => ⟨S100000, .f32⟩
  | .hbm, ⟨19, _⟩ => ⟨S1100000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1100000, .i32⟩
  | .hbm, ⟨31, _⟩ => ⟨S1100000, .i1⟩
  | .hbm, ⟨32, _⟩ => ⟨S_, .i32⟩
  | .hbm, ⟨33, _⟩ => ⟨S1100000, .i32⟩
  | .hbm, ⟨34, _⟩ => ⟨S1100000, .i32⟩
  | .hbm, ⟨35, _⟩ => ⟨S1100000, .i32⟩
  | .hbm, ⟨36, _⟩ => ⟨S1100000x1, .i32⟩
  | .hbm, ⟨37, _⟩ => ⟨S1100000, .f32⟩
  | .hbm, ⟨38, _⟩ => ⟨S_, .i32⟩
  | .hbm, ⟨39, _⟩ => ⟨S1100000, .i32⟩
  | .hbm, ⟨40, _⟩ => ⟨S1100000, .i1⟩
  | .hbm, ⟨41, _⟩ => ⟨S_, .i32⟩
  | .hbm, ⟨42, _⟩ => ⟨S1100000, .i32⟩
  | .hbm, ⟨43, _⟩ => ⟨S1100000, .i32⟩
  | .hbm, ⟨44, _⟩ => ⟨S1100000, .i32⟩
  | .hbm, ⟨45, _⟩ => ⟨S1100000x1, .i32⟩
  | .hbm, ⟨46, _⟩ => ⟨S1100000, .f32⟩
  | .hbm, ⟨47, _⟩ => ⟨S1100000, .f32⟩
  | .hbm, ⟨48, _⟩ => ⟨S100000x64, .f32⟩
  | .hbm, ⟨49, _⟩ => ⟨S_, .i32⟩
  | .hbm, ⟨50, _⟩ => ⟨S1100000, .i32⟩
  | .hbm, ⟨51, _⟩ => ⟨S1100000, .i1⟩
  | .hbm, ⟨52, _⟩ => ⟨S_, .i32⟩
  | .hbm, ⟨53, _⟩ => ⟨S1100000, .i32⟩
  | .hbm, ⟨54, _⟩ => ⟨S1100000, .i32⟩
  | .hbm, ⟨55, _⟩ => ⟨S1100000, .i32⟩
  | .hbm, ⟨56, _⟩ => ⟨S1100000x1, .i32⟩
  | .hbm, ⟨57, _⟩ => ⟨S1100000x64, .f32⟩
  | .hbm, ⟨58, _⟩ => ⟨S1100000x1, .f32⟩
  | .hbm, ⟨59, _⟩ => ⟨S1100000x64, .f32⟩
  | .hbm, ⟨60, _⟩ => ⟨S1100000x64, .f32⟩
  | .hbm, ⟨61, _⟩ => ⟨S_, .f32⟩
  | .hbm, ⟨62, _⟩ => ⟨S100000x64, .f32⟩
  | .hbm, ⟨63, _⟩ => ⟨S1100000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S100000x128, .f32⟩
  | .hbm, ⟨69, _⟩ => ⟨S_, .i32⟩
  | .hbm, ⟨70, _⟩ => ⟨S1100000, .i32⟩
  | .hbm, ⟨71, _⟩ => ⟨S1100000, .i1⟩
  | .hbm, ⟨72, _⟩ => ⟨S_, .i32⟩
  | .hbm, ⟨73, _⟩ => ⟨S1100000, .i32⟩
  | .hbm, ⟨74, _⟩ => ⟨S1100000, .i32⟩
  | .hbm, ⟨75, _⟩ => ⟨S1100000, .i32⟩
  | .hbm, ⟨76, _⟩ => ⟨S1100000x1, .i32⟩
  | .hbm, ⟨77, _⟩ => ⟨S1100000x128, .f32⟩
  | .hbm, ⟨78, _⟩ => ⟨S1100000x1, .f32⟩
  | .hbm, ⟨79, _⟩ => ⟨S1100000x128, .f32⟩
  | .hbm, ⟨80, _⟩ => ⟨S1100000x128, .f32⟩
  | .hbm, ⟨81, _⟩ => ⟨S_, .f32⟩
  | .hbm, ⟨82, _⟩ => ⟨S100000x128, .f32⟩
  | .hbm, ⟨83, _⟩ => ⟨S1100000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S_, .i32⟩
  | .hbm, ⟨90, _⟩ => ⟨S1100000, .i32⟩
  | .hbm, ⟨91, _⟩ => ⟨S1100000, .i1⟩
  | .hbm, ⟨92, _⟩ => ⟨S_, .i32⟩
  | .hbm, ⟨93, _⟩ => ⟨S1100000, .i32⟩
  | .hbm, ⟨94, _⟩ => ⟨S1100000, .i32⟩
  | .hbm, ⟨95, _⟩ => ⟨S1100000, .i32⟩
  | .hbm, ⟨96, _⟩ => ⟨S1100000x1, .i32⟩
  | .hbm, ⟨97, _⟩ => ⟨S1100000x128, .f32⟩
  | .hbm, ⟨98, _⟩ => ⟨S1100000x1, .f32⟩
  | .hbm, ⟨99, _⟩ => ⟨S1100000x128, .f32⟩
  | .hbm, ⟨100, _⟩ => ⟨S1100000x128, .f32⟩
  | .hbm, ⟨101, _⟩ => ⟨S_, .f32⟩
  | .hbm, ⟨102, _⟩ => ⟨S100000x128, .f32⟩
  | .hbm, ⟨103, _⟩ => ⟨S1100000x1, .i32⟩
  | .hbm, ⟨104, _⟩ => ⟨S100000x128, .f32⟩
  | .hbm, ⟨105, _⟩ => ⟨S1x128, .f32⟩
  | .hbm, ⟨106, _⟩ => ⟨S100000x128, .f32⟩
  | .hbm, ⟨107, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x128_S100000x128_1_0_0_1_n_n_wf : DotDims.WF S100000x64 S64x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf

class Facts : Prop extends Facts₀ where

variable [Facts]
-- ==== Proof.RunK.lean ====
/-
  The kernel program's run, with every buffer named.

  @main is nine stretches in a row: host operations, the first product's pallas_call, host operations, the second
  product's, host operations, the third product's, host operations.  The contents of the TensorCore's buffers at the
  end of each stretch are a fold from the launch memory: a stretch of host operations rewrites the buffers its
  operations write, and a pallas_call leaves its result array at what its write-backs add up to and every other buffer
  as it was.  Every weakly fair execution terminates, nothing faulting, with EVERY unscoped buffer at the end of that
  fold — in particular the two results, which the statement of the frame alone does not mention.
-/
import proofs.«149168_j11441792877014_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each unscoped
    TensorCore buffer holds the last boundary's contents `W9`: the launch over the nine segments, the last thread state
    read against the final state. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W9 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (mem_uc b hb))

end Cert.KernelIdeal.Whole

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.Tiles0.lean ====
/-
  What the first product's tiles add up to.

  The first of the three pallas_calls walks the node axis in ten row blocks of 10000: at point `t` it reads rows
  `10000·t … 10000·t + 9999` of the `[100000, 128]` operand, the whole `[128, 64]` weight, multiplies them into a
  zero accumulator and writes the `[10000, 64]` product back as row block `t` of the `[100000, 64]` result.  Over the
  extended reals a change of float format is the identity and a product into a zero accumulator is the plain sum
  `∑ k, x (r, k) · w (k, q)`, which depends on row `r` of the operand only: so row block `t` of the result is row
  block `t` of the whole product, and since the ten blocks tile the result, the array the call leaves IS the whole
  product — the host's `dot_general` contracting the operand's second axis with the weight's first.
-/
import proofs.«149168_j11441792877014_1_alg».proof.Proof.Gen.KernelIdeal.Frame
import proofs.«149168_j11441792877014_1_alg».proof.Proof.LibPlainProduct
import proofs.«149168_j11441792877014_1_alg».proof.Proof.LibHostProduct
import Idealize.ShloMosaic.Lib.Pipeline.Value
import Idealize.ShloMosaic.Lib.ValueIdx
import Idealize.ShloMosaic.PureOps.Ideal.Laws

set_option maxRecDepth 16384

noncomputable section

namespace Cert.KernelIdeal.Tiles

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀

/-- The whole product `[100000, 128] · [128, 64]`: the second axis of the left operand against the first of the right. -/
abbrev D0 : DotDims S100000x128 S128x64 S100000x64 := ⟨[1], [0], [0], [1], [], [], by decide⟩

theorem hz : (![0, 0] : Fin 2 → Nat) = fun _ => 0 := funext fun a => by fin_cases a <;> rfl

/-- One tile's product at `(a, b)`: the sum over the shared axis (the two roundings to bf16 are the identity here). -/
theorem pay0_apply (x0 : Vec Ideal S10000x128 .f32) (x1 : Vec Ideal S128x64 .f32) (a : Fin 10000) (b : Fin 64) :
    k0_pay1 (F := Ideal) x0 x1 (ix2 a b) = ∑ k : Fin 128, x0 (ix2 a k) * x1 (ix2 k b) := by
  unfold k0_pay1
  exact Cert.PlainProduct.matmul_nn_apply Facts₀.dot_S10000x128_S128x64_S10000x64_1_0_0_1_n_n_wf none _ _ a b

/-- A tile whose rows are rows of `A` (row `j 0` of the tile is row `i 0` of `A`) and whose weight is `B`, at a column
    `j 1 = i 1`: the tile's product there is the whole product's entry `i`. -/
theorem tile0 (A : FVec Ideal S100000x128 .f32) (B : FVec Ideal S128x64 .f32)
    (x0 : Vec Ideal S10000x128 .f32) (x1 : Vec Ideal S128x64 .f32) (j : S10000x64.Idx) (i : S100000x64.Idx)
    (h0 : ∀ k : Fin 128, x0 (ix2 (j 0) k) = A (ix2 (i 0) k))
    (h1 : ∀ k : Fin 128, x1 (ix2 k (j 1)) = B (ix2 k (i 1))) :
    k0_pay1 (F := Ideal) x0 x1 j = Host.dotGeneral D0 none A B i := by
  calc k0_pay1 (F := Ideal) x0 x1 j
      = k0_pay1 (F := Ideal) x0 x1 (ix2 (j 0) (j 1)) := congrArg (k0_pay1 (F := Ideal) x0 x1) (eq_ix2 j)
    _ = ∑ k : Fin 128, x0 (ix2 (j 0) k) * x1 (ix2 k (j 1)) := pay0_apply x0 x1 (j 0) (j 1)
    _ = ∑ k : Fin 128, A (ix2 (i 0) k) * B (ix2 k (i 1)) :=
        Finset.sum_congr rfl fun k _ => congrArg₂ (· * ·) (h0 k) (h1 k)
    _ = Host.dotGeneral D0 none A B (ix2 (i 0) (i 1)) :=
        (Cert.HostProduct.dotGeneral_nn_apply D0.wf none A B (i 0) (i 1)).symm
    _ = Host.dotGeneral D0 none A B i := congrArg (Host.dotGeneral D0 none A B) (eq_ix2 i).symm

variable (V : (c : Dev nD) → (b : Ref sig .tc) → Buf (Elt Ideal) ((c : Thread nD τ).loc b))

/-- The whole product of the first call's operand and weight, as the call finds them in their buffers. -/
abbrev whole0 (c : Dev nD) : FVec Ideal S100000x64 .f32 :=
  Host.dotGeneral (F := Ideal) (φ₁ := .f32) (φ₂ := .f32) D0 none (V c main_arg0) (V c main_arg2)

/-- The printed index maps, decided over the ten grid points: the operand's row block and the result's are the same
    block, every column block is block 0, the weight's block is always block (0, 0), and the row block is below ten. -/
theorem idx0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row blocks of the result is some point's. -/
theorem onto0 : ∀ q : Fin 10, ∃ t : Fin cfg0.N, win0_2.index t = ![q.val, 0] :=
  (by decide +kernel : ∀ q : Fin 10, ∃ t : Fin grid0.N, win0_2.index t = ![q.val, 0])

/-- WHAT POINT `t` WRITES BACK is row block `t` of the whole product of the operand and the weight as the call finds them. -/
theorem flushed0 (c : Dev nD) (t : Fin cfg0.N) :
    (dat0 V c).flushed 2 t
      = ((cfg0.win 2).blk t).view.read (Elt Ideal) (whole0 V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5⟩ := idx0 t
  funext j
  show k0_pay1 (F := Ideal) (iblk0 V c 0 t) (iblk0 V c 1 t) j = whole0 V c (((cfg0.win 2).blk t).view.emb j)
  refine tile0 (V c main_arg0) (V c main_arg2) (iblk0 V c 0 t) (iblk0 V c 1 t) j (((cfg0.win 2).blk t).view.emb j)
    (fun k => ?_) (fun k => ?_)
  · show V c main_arg0 (((cfg0.win 0).blk t).view.emb (ix2 (j 0) k))
      = V c main_arg0 (ix2 ((((cfg0.win 2).blk t).view.emb j) 0) k)
    refine congrArg (V c main_arg0) ?_
    funext a; apply Fin.ext
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * k.val = k.val
      omega
  · show V c main_arg2 (((cfg0.win 1).blk t).view.emb (ix2 k (j 1)))
      = V c main_arg2 (ix2 k ((((cfg0.win 2).blk t).view.emb j) 1))
    refine congrArg (V c main_arg2) ?_
    funext a; apply Fin.ext
    match a with
    | ⟨0, _⟩ =>
      show win0_1.index t (0 : Fin 2) * 128 + 1 * k.val = k.val
      omega
    | ⟨1, _⟩ =>
      show win0_1.index t (1 : Fin 2) * 64 + 1 * (j 1).val = win0_2.index t (1 : Fin 2) * 64 + 1 * (j 1).val
      omega

/-- An index of the result is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v30).slice (win0_2.rect t)).set ↔ _
  rw [View.set_slice_whole, Rect.mem_set_unit]
  exact Iff.rfl

/-- The ten row blocks tile the result: row `r` is in the block of the point whose row block is `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- THE ARRAY the first pallas_call leaves: the whole product of its operand and its weight as it finds them. -/
theorem value0 (c : Dev nD) :
    (dat0 V c).arrAt 2 cfg0.N = whole0 V c :=
  (dat0 V c).arrAt_eq_of_cover 2 _ (fun t _ => flushed0 V c t) cover0

end Cert.KernelIdeal.Tiles

end
-- ==== Proof.Tiles1.lean ====
/-
  What the second product's tiles add up to.

  This pallas_call walks the node axis in ten row blocks of 10000: at point `t` it reads rows
  `10000·t … 10000·t + 9999` of the `[100000, 64]` hidden features, the whole `[64, 128]` weight, multiplies them into a
  zero accumulator and writes the `[10000, 128]` product back as row block `t` of the `[100000, 128]` result.  Over the
  extended reals the re-layout to the same shape and the change of float format are the identity and a product into a
  zero accumulator is the plain sum `∑ k, h (r, k) · w (k, q)`, which depends on row `r` of the features only: so row
  block `t` of the result is row block `t` of the whole product, and since the ten blocks tile the result, the array the
  call leaves IS the whole product.
-/
import proofs.«149168_j11441792877014_1_alg».proof.Proof.Gen.KernelIdeal.Frame
import proofs.«149168_j11441792877014_1_alg».proof.Proof.LibPlainProduct
import proofs.«149168_j11441792877014_1_alg».proof.Proof.LibHostProduct
import Idealize.ShloMosaic.Lib.Pipeline.Value
import Idealize.ShloMosaic.Lib.ValueIdx
import Idealize.ShloMosaic.PureOps.Ideal.Laws

set_option maxRecDepth 16384

noncomputable section

namespace Cert.KernelIdeal.Tiles

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀

/-- The whole product `[100000, 64] · [64, 128]`: the second axis of the left operand against the first of the right. -/
abbrev D1 : DotDims S100000x64 S64x128 S100000x128 := ⟨[1], [0], [0], [1], [], [], by decide⟩

theorem hz1 : (![0, 0] : Fin 2 → Nat) = fun _ => 0 := funext fun a => by fin_cases a <;> rfl

/-- One tile's product at `(a, b)`: the sum over the shared axis (the re-layout and the two roundings are the identity here). -/
theorem pay1_apply (x0 : Vec Ideal S10000x64 .f32) (x1 : Vec Ideal S64x128 .f32) (a : Fin 10000) (b : Fin 128) :
    k1_pay1 (F := Ideal) x0 x1 (ix2 a b) = ∑ k : Fin 64, x0 (ix2 a k) * x1 (ix2 k b) := by
  unfold k1_pay1
  simp only [shapeCast_self]
  exact Cert.PlainProduct.matmul_nn_apply Facts₀.dot_S10000x64_S64x128_S10000x128_1_0_0_1_n_n_wf none _ _ a b

/-- A tile whose rows are rows of `A` and whose weight is `B`: the tile's product at `j` is the whole product's entry `i`
    when row `j 0` of the tile is row `i 0` of `A` and the columns agree. -/
theorem tile1 (A : FVec Ideal S100000x64 .f32) (B : FVec Ideal S64x128 .f32)
    (x0 : Vec Ideal S10000x64 .f32) (x1 : Vec Ideal S64x128 .f32) (j : S10000x128.Idx) (i : S100000x128.Idx)
    (h0 : ∀ k : Fin 64, x0 (ix2 (j 0) k) = A (ix2 (i 0) k))
    (h1 : ∀ k : Fin 64, x1 (ix2 k (j 1)) = B (ix2 k (i 1))) :
    k1_pay1 (F := Ideal) x0 x1 j = Host.dotGeneral D1 none A B i := by
  calc k1_pay1 (F := Ideal) x0 x1 j
      = k1_pay1 (F := Ideal) x0 x1 (ix2 (j 0) (j 1)) := congrArg (k1_pay1 (F := Ideal) x0 x1) (eq_ix2 j)
    _ = ∑ k : Fin 64, x0 (ix2 (j 0) k) * x1 (ix2 k (j 1)) := pay1_apply x0 x1 (j 0) (j 1)
    _ = ∑ k : Fin 64, A (ix2 (i 0) k) * B (ix2 k (i 1)) :=
        Finset.sum_congr rfl fun k _ => congrArg₂ (· * ·) (h0 k) (h1 k)
    _ = Host.dotGeneral D1 none A B (ix2 (i 0) (i 1)) :=
        (Cert.HostProduct.dotGeneral_nn_apply D1.wf none A B (i 0) (i 1)).symm
    _ = Host.dotGeneral D1 none A B i := congrArg (Host.dotGeneral D1 none A B) (eq_ix2 i).symm

variable (V : (c : Dev nD) → (b : Ref sig .tc) → Buf (Elt Ideal) ((c : Thread nD τ).loc b))

/-- The whole product of this call's features and weight, as the call finds them in their buffers. -/
abbrev whole1 (c : Dev nD) : FVec Ideal S100000x128 .f32 :=
  Host.dotGeneral (F := Ideal) (φ₁ := .f32) (φ₂ := .f32) D1 none (V c main_v46) (V c main_arg4)

/-- The printed index maps, decided over the ten grid points: the features' row block and the result's are the same
    block, every column block is block 0, the weight's block is always block (0, 0), and the row block is below ten. -/
theorem idx1 : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten row blocks of the result is some point's. -/
theorem onto1 : ∀ q : Fin 10, ∃ t : Fin cfg1.N, win1_2.index t = ![q.val, 0] :=
  (by decide +kernel : ∀ q : Fin 10, ∃ t : Fin grid1.N, win1_2.index t = ![q.val, 0])

/-- WHAT POINT `t` WRITES BACK is row block `t` of the whole product of the features and the weight as the call finds them. -/
theorem flushed1 (c : Dev nD) (t : Fin cfg1.N) :
    (dat1 V c).flushed 2 t = ((cfg1.win 2).blk t).view.read (Elt Ideal) (whole1 V c) := by
  show (cfg1.win 2).cut (grid1.coords t) ((dat1 V c).after 2 t) = _
  rw [after1_2]
  unfold out1_2
  rw [View.canon_unit_zero hz1]
  simp only [View.ld_unit_zero (S := S10000x64) hz1, View.ld_unit_zero (S := S64x128) hz1]
  obtain ⟨e0, e1, e2, e3, e4, e5⟩ := idx1 t
  funext j
  show k1_pay1 (F := Ideal) (iblk1 V c 0 t) (iblk1 V c 1 t) j = whole1 V c (((cfg1.win 2).blk t).view.emb j)
  refine tile1 (V c main_v46) (V c main_arg4) (iblk1 V c 0 t) (iblk1 V c 1 t) j (((cfg1.win 2).blk t).view.emb j)
    (fun k => ?_) (fun k => ?_)
  · show V c main_v46 (((cfg1.win 0).blk t).view.emb (ix2 (j 0) k))
      = V c main_v46 (ix2 ((((cfg1.win 2).blk t).view.emb j) 0) k)
    refine congrArg (V c main_v46) ?_
    funext a; apply Fin.ext
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 64 + 1 * k.val = k.val
      omega
  · show V c main_arg4 (((cfg1.win 1).blk t).view.emb (ix2 k (j 1)))
      = V c main_arg4 (ix2 k ((((cfg1.win 2).blk t).view.emb j) 1))
    refine congrArg (V c main_arg4) ?_
    funext a; apply Fin.ext
    match a with
    | ⟨0, _⟩ =>
      show win1_1.index t (0 : Fin 2) * 64 + 1 * k.val = k.val
      omega
    | ⟨1, _⟩ =>
      show win1_1.index t (1 : Fin 2) * 128 + 1 * (j 1).val = win1_2.index t (1 : Fin 2) * 128 + 1 * (j 1).val
      omega

/-- An index of the result is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v47).slice (win1_2.rect t)).set ↔ _
  rw [View.set_slice_whole, Rect.mem_set_unit]
  exact Iff.rfl

/-- The ten row blocks tile the result: row `r` is in the block of the point whose row block is `r / 10000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 128 ≤ (i 1).val ∧ (i 1).val < win1_2.index t (1 : Fin 2) * 128 + 128
    omega

/-- THE ARRAY this pallas_call leaves: the whole product of its features and its weight as it finds them. -/
theorem value1 (c : Dev nD) : (dat1 V c).arrAt 2 cfg1.N = whole1 V c :=
  (dat1 V c).arrAt_eq_of_cover 2 _ (fun t _ => flushed1 V c t) cover1

end Cert.KernelIdeal.Tiles

end
-- ==== Proof.Tiles2.lean ====
/-
  What the third product's tiles add up to.

  This pallas_call walks the node axis in ten row blocks of 10000: at point `t` it reads rows
  `10000·t … 10000·t + 9999` of the `[100000, 64]` hidden features, the whole `[64, 128]` weight, multiplies them into a
  zero accumulator and writes the `[10000, 128]` product back as row block `t` of the `[100000, 128]` result.  Over the
  extended reals the re-layout to the same shape and the change of float format are the identity and a product into a
  zero accumulator is the plain sum `∑ k, h (r, k) · w (k, q)`, which depends on row `r` of the features only: so row
  block `t` of the result is row block `t` of the whole product, and since the ten blocks tile the result, the array the
  call leaves IS the whole product.
-/
import proofs.«149168_j11441792877014_1_alg».proof.Proof.Gen.KernelIdeal.Frame
import proofs.«149168_j11441792877014_1_alg».proof.Proof.LibPlainProduct
import proofs.«149168_j11441792877014_1_alg».proof.Proof.LibHostProduct
import proofs.«149168_j11441792877014_1_alg».proof.Proof.Tiles1
import Idealize.ShloMosaic.Lib.Pipeline.Value
import Idealize.ShloMosaic.Lib.ValueIdx
import Idealize.ShloMosaic.PureOps.Ideal.Laws

set_option maxRecDepth 16384

noncomputable section

namespace Cert.KernelIdeal.Tiles

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Facts₀

/-- One tile's product at `(a, b)`: the sum over the shared axis (the re-layout and the two roundings are the identity here). -/
theorem pay2_apply (x0 : Vec Ideal S10000x64 .f32) (x1 : Vec Ideal S64x128 .f32) (a : Fin 10000) (b : Fin 128) :
    k2_pay1 (F := Ideal) x0 x1 (ix2 a b) = ∑ k : Fin 64, x0 (ix2 a k) * x1 (ix2 k b) := by
  unfold k2_pay1
  simp only [shapeCast_self]
  exact Cert.PlainProduct.matmul_nn_apply Facts₀.dot_S10000x64_S64x128_S10000x128_1_0_0_1_n_n_wf none _ _ a b

/-- A tile whose rows are rows of `A` and whose weight is `B`: the tile's product at `j` is the whole product's entry `i`
    when row `j 0` of the tile is row `i 0` of `A` and the columns agree. -/
theorem tile2 (A : FVec Ideal S100000x64 .f32) (B : FVec Ideal S64x128 .f32)
    (x0 : Vec Ideal S10000x64 .f32) (x1 : Vec Ideal S64x128 .f32) (j : S10000x128.Idx) (i : S100000x128.Idx)
    (h0 : ∀ k : Fin 64, x0 (ix2 (j 0) k) = A (ix2 (i 0) k))
    (h1 : ∀ k : Fin 64, x1 (ix2 k (j 1)) = B (ix2 k (i 1))) :
    k2_pay1 (F := Ideal) x0 x1 j = Host.dotGeneral D1 none A B i := by
  calc k2_pay1 (F := Ideal) x0 x1 j
      = k2_pay1 (F := Ideal) x0 x1 (ix2 (j 0) (j 1)) := congrArg (k2_pay1 (F := Ideal) x0 x1) (eq_ix2 j)
    _ = ∑ k : Fin 64, x0 (ix2 (j 0) k) * x1 (ix2 k (j 1)) := pay2_apply x0 x1 (j 0) (j 1)
    _ = ∑ k : Fin 64, A (ix2 (i 0) k) * B (ix2 k (i 1)) :=
        Finset.sum_congr rfl fun k _ => congrArg₂ (· * ·) (h0 k) (h1 k)
    _ = Host.dotGeneral D1 none A B (ix2 (i 0) (i 1)) :=
        (Cert.HostProduct.dotGeneral_nn_apply D1.wf none A B (i 0) (i 1)).symm
    _ = Host.dotGeneral D1 none A B i := congrArg (Host.dotGeneral D1 none A B) (eq_ix2 i).symm

variable (V : (c : Dev nD) → (b : Ref sig .tc) → Buf (Elt Ideal) ((c : Thread nD τ).loc b))

/-- The whole product of this call's features and weight, as the call finds them in their buffers. -/
abbrev whole2 (c : Dev nD) : FVec Ideal S100000x128 .f32 :=
  Host.dotGeneral (F := Ideal) (φ₁ := .f32) (φ₂ := .f32) D1 none (V c main_v46) (V c main_arg6)

/-- The printed index maps, decided over the ten grid points: the features' row block and the result's are the same
    block, every column block is block 0, the weight's block is always block (0, 0), and the row block is below ten. -/
theorem idx2 : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row blocks of the result is some point's. -/
theorem onto2 : ∀ q : Fin 10, ∃ t : Fin cfg2.N, win2_2.index t = ![q.val, 0] :=
  (by decide +kernel : ∀ q : Fin 10, ∃ t : Fin grid2.N, win2_2.index t = ![q.val, 0])

/-- WHAT POINT `t` WRITES BACK is row block `t` of the whole product of the features and the weight as the call finds them. -/
theorem flushed2 (c : Dev nD) (t : Fin cfg2.N) :
    (dat2 V c).flushed 2 t = ((cfg2.win 2).blk t).view.read (Elt Ideal) (whole2 V c) := by
  show (cfg2.win 2).cut (grid2.coords t) ((dat2 V c).after 2 t) = _
  rw [after2_2]
  unfold out2_2
  rw [View.canon_unit_zero hz1]
  simp only [View.ld_unit_zero (S := S10000x64) hz1, View.ld_unit_zero (S := S64x128) hz1]
  obtain ⟨e0, e1, e2, e3, e4, e5⟩ := idx2 t
  funext j
  show k2_pay1 (F := Ideal) (iblk2 V c 0 t) (iblk2 V c 1 t) j = whole2 V c (((cfg2.win 2).blk t).view.emb j)
  refine tile2 (V c main_v46) (V c main_arg6) (iblk2 V c 0 t) (iblk2 V c 1 t) j (((cfg2.win 2).blk t).view.emb j)
    (fun k => ?_) (fun k => ?_)
  · show V c main_v46 (((cfg2.win 0).blk t).view.emb (ix2 (j 0) k))
      = V c main_v46 (ix2 ((((cfg2.win 2).blk t).view.emb j) 0) k)
    refine congrArg (V c main_v46) ?_
    funext a; apply Fin.ext
    match a with
    | ⟨0, _⟩ =>
      show win2_0.index t (0 : Fin 2) * 10000 + 1 * (j 0).val = win2_2.index t (0 : Fin 2) * 10000 + 1 * (j 0).val
      omega
    | ⟨1, _⟩ =>
      show win2_0.index t (1 : Fin 2) * 64 + 1 * k.val = k.val
      omega
  · show V c main_arg6 (((cfg2.win 1).blk t).view.emb (ix2 k (j 1)))
      = V c main_arg6 (ix2 k ((((cfg2.win 2).blk t).view.emb j) 1))
    refine congrArg (V c main_arg6) ?_
    funext a; apply Fin.ext
    match a with
    | ⟨0, _⟩ =>
      show win2_1.index t (0 : Fin 2) * 64 + 1 * k.val = k.val
      omega
    | ⟨1, _⟩ =>
      show win2_1.index t (1 : Fin 2) * 128 + 1 * (j 1).val = win2_2.index t (1 : Fin 2) * 128 + 1 * (j 1).val
      omega

/-- An index of the result is in point `t`'s block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v64).slice (win2_2.rect t)).set ↔ _
  rw [View.set_slice_whole, Rect.mem_set_unit]
  exact Iff.rfl

/-- The ten row blocks tile the result: row `r` is in the block of the point whose row block is `r / 10000`. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 128 ≤ (i 1).val ∧ (i 1).val < win2_2.index t (1 : Fin 2) * 128 + 128
    omega

/-- THE ARRAY this pallas_call leaves: the whole product of its features and its weight as it finds them. -/
theorem value2 (c : Dev nD) : (dat2 V c).arrAt 2 cfg2.N = whole2 V c :=
  (dat2 V c).arrAt_eq_of_cover 2 _ (fun t _ => flushed2 V c t) cover2

end Cert.KernelIdeal.Tiles

end
-- ==== Proof.Exits.lean ====
/-
  A pallas_call's exit contents are ONE host product applied to its entry contents.

  A pallas_call leaves each of its arrays at what its write-backs add up to and every other buffer as it found it.  Its
  two operands are only read, so they end as entered; its result array ends at the whole product of the two operands
  (the tiles add up to it).  That is exactly what the host's `dot_general` from the operands' buffers into the result's
  buffer leaves.  So the buffer contents at the end of @main — a fold of host stretches and pallas_calls from the launch
  memory — are the fold of host operations ONLY, with a `dot_general` standing where each pallas_call stood.
-/
import proofs.«149168_j11441792877014_1_alg».proof.Proof.Gen.KernelIdeal.Frame
import proofs.«149168_j11441792877014_1_alg».proof.Proof.Tiles0
import proofs.«149168_j11441792877014_1_alg».proof.Proof.Tiles1
import proofs.«149168_j11441792877014_1_alg».proof.Proof.Tiles2
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Idealize.ShloMosaic.Pipeline (Dat Cfg Window)
open Cert.KernelIdeal Cert.KernelIdeal.Gen

/-- The three operations of the outlined `where` (the constant 0 converted, repeated over the nodes, and chosen where
    the degree is not positive), stated over the buffers themselves. -/
abbrev whereOps : List (HloOp τ sig (Elt Ideal)) :=
  [ StableHlo.unary main_cst_2 main_call0_v0
      (id : (⟨S_, .f32⟩ : BufTy).Contents (Elt Ideal) → (⟨S_, .f32⟩ : BufTy).Contents (Elt Ideal)),
    StableHlo.unary main_call0_v0 main_call0_v1
      (broadcastInDim S100000 ![] Facts₀.bcast_S_S100000 :
        (⟨S_, .f32⟩ : BufTy).Contents (Elt Ideal) → (⟨S100000, .f32⟩ : BufTy).Contents (Elt Ideal)),
    StableHlo.ternary main_v12 main_v13 main_call0_v1 main_v14
      (select : (⟨S100000, .i1⟩ : BufTy).Contents (Elt Ideal) → (⟨S100000, .f32⟩ : BufTy).Contents (Elt Ideal)
        → (⟨S100000, .f32⟩ : BufTy).Contents (Elt Ideal) → (⟨S100000, .f32⟩ : BufTy).Contents (Elt Ideal)) ]

/-- The program states them over typed references, whose contents are carried along an equation of buffer types that
    holds by computation: the same three operations. -/
theorem whereOps_eq : (hostOps0_1 : List (HloOp τ sig (Elt Ideal))) = whereOps := rfl

variable (m : (ℓ : Loc nD τ sig) → Buf (Elt Ideal) ℓ) (ρ : Dev nD → PrngReg)

/-- The first product as a host operation over the kernel program's buffers: operand `%arg0`, weight `%arg2`, into `%30`. -/
abbrev prodOp0 : HloOp τ sig (Elt Ideal) :=
  StableHlo.binary main_arg0 main_arg2 main_v30 ((fun l r => Host.dotGeneral (F := Ideal) (φ₁ := .f32) (φ₂ := .f32) Tiles.D0 none l r) :
    (⟨S100000x128, .f32⟩ : BufTy).Contents (Elt Ideal) → (⟨S128x64, .f32⟩ : BufTy).Contents (Elt Ideal) → (⟨S100000x64, .f32⟩ : BufTy).Contents (Elt Ideal))

/-- After the first pallas_call the buffers hold what the host product would have left from the entry contents. -/
theorem exit0 (c : Dev nD) : W4 m ρ c = prodOp0.result (W3 m ρ c) := by
  funext b
  by_cases h : ∃ w, Proc.devRef .tc (Pipeline.arrRef spec0 w) = b
  · obtain ⟨w, rfl⟩ := h
    rw [W4_arr]
    match w with
    | ⟨0, _⟩ =>
      show (dat0 (V3 m ρ) c).arrAt 0 cfg0.N = prodOp0.result (W3 m ρ c) (Proc.devRef .tc main_arg0)
      unfold prodOp0
      rw [StableHlo.binary_result_ne]
      · exact ((dat0 (V3 m ρ) c).arrAt_in 0 rfl _).trans (A_eq0 (V3 m ρ) c 0)
      · decide
    | ⟨1, _⟩ =>
      show (dat0 (V3 m ρ) c).arrAt 1 cfg0.N = prodOp0.result (W3 m ρ c) (Proc.devRef .tc main_arg2)
      unfold prodOp0
      rw [StableHlo.binary_result_ne]
      · exact ((dat0 (V3 m ρ) c).arrAt_in 1 rfl _).trans (A_eq0 (V3 m ρ) c 1)
      · decide
    | ⟨2, _⟩ =>
      show (dat0 (V3 m ρ) c).arrAt 2 cfg0.N = prodOp0.result (W3 m ρ c) (Proc.devRef .tc main_v30)
      unfold prodOp0
      rw [StableHlo.binary_result]
      exact Tiles.value0 (V3 m ρ) c
    | ⟨_ + 3, h⟩ => exact absurd h (Nat.not_lt.2 (Nat.le_add_left _ _))
  · unfold W4 Pipeline.withArrays
    rw [dif_neg h]
    exact (HloOp.result_of_not_mem _ _ (by
      show b ∉ ({Proc.devRef .tc _} : Finset (DevRef τ sig))
      rw [Finset.mem_singleton]
      exact fun e => h ⟨2, e.symm⟩)).symm

/-- The second product as a host operation over the kernel program's buffers: features `%46`, weight `%arg4`, into `%47`. -/
abbrev prodOp1 : HloOp τ sig (Elt Ideal) :=
  StableHlo.binary main_v46 main_arg4 main_v47 ((fun l r => Host.dotGeneral (F := Ideal) (φ₁ := .f32) (φ₂ := .f32) Tiles.D1 none l r) :
    (⟨S100000x64, .f32⟩ : BufTy).Contents (Elt Ideal) → (⟨S64x128, .f32⟩ : BufTy).Contents (Elt Ideal) → (⟨S100000x128, .f32⟩ : BufTy).Contents (Elt Ideal))

/-- After the second pallas_call the buffers hold what the host product would have left from the entry contents. -/
theorem exit1 (c : Dev nD) : W6 m ρ c = prodOp1.result (W5 m ρ c) := by
  funext b
  by_cases h : ∃ w, Proc.devRef .tc (Pipeline.arrRef spec1 w) = b
  · obtain ⟨w, rfl⟩ := h
    rw [W6_arr]
    match w with
    | ⟨0, _⟩ =>
      show (dat1 (V5 m ρ) c).arrAt 0 cfg1.N = prodOp1.result (W5 m ρ c) (Proc.devRef .tc main_v46)
      unfold prodOp1
      rw [StableHlo.binary_result_ne]
      · exact ((dat1 (V5 m ρ) c).arrAt_in 0 rfl _).trans (A_eq1 (V5 m ρ) c 0)
      · decide
    | ⟨1, _⟩ =>
      show (dat1 (V5 m ρ) c).arrAt 1 cfg1.N = prodOp1.result (W5 m ρ c) (Proc.devRef .tc main_arg4)
      unfold prodOp1
      rw [StableHlo.binary_result_ne]
      · exact ((dat1 (V5 m ρ) c).arrAt_in 1 rfl _).trans (A_eq1 (V5 m ρ) c 1)
      · decide
    | ⟨2, _⟩ =>
      show (dat1 (V5 m ρ) c).arrAt 2 cfg1.N = prodOp1.result (W5 m ρ c) (Proc.devRef .tc main_v47)
      unfold prodOp1
      rw [StableHlo.binary_result]
      exact Tiles.value1 (V5 m ρ) c
    | ⟨_ + 3, h⟩ => exact absurd h (Nat.not_lt.2 (Nat.le_add_left _ _))
  · unfold W6 Pipeline.withArrays
    rw [dif_neg h]
    exact (HloOp.result_of_not_mem _ _ (by
      show b ∉ ({Proc.devRef .tc _} : Finset (DevRef τ sig))
      rw [Finset.mem_singleton]
      exact fun e => h ⟨2, e.symm⟩)).symm

/-- The third product as a host operation over the kernel program's buffers: features `%46`, weight `%arg6`, into `%64`. -/
abbrev prodOp2 : HloOp τ sig (Elt Ideal) :=
  StableHlo.binary main_v46 main_arg6 main_v64 ((fun l r => Host.dotGeneral (F := Ideal) (φ₁ := .f32) (φ₂ := .f32) Tiles.D1 none l r) :
    (⟨S100000x64, .f32⟩ : BufTy).Contents (Elt Ideal) → (⟨S64x128, .f32⟩ : BufTy).Contents (Elt Ideal) → (⟨S100000x128, .f32⟩ : BufTy).Contents (Elt Ideal))

/-- After the third pallas_call the buffers hold what the host product would have left from the entry contents. -/
theorem exit2 (c : Dev nD) : W8 m ρ c = prodOp2.result (W7 m ρ c) := by
  funext b
  by_cases h : ∃ w, Proc.devRef .tc (Pipeline.arrRef spec2 w) = b
  · obtain ⟨w, rfl⟩ := h
    rw [W8_arr]
    match w with
    | ⟨0, _⟩ =>
      show (dat2 (V7 m ρ) c).arrAt 0 cfg2.N = prodOp2.result (W7 m ρ c) (Proc.devRef .tc main_v46)
      unfold prodOp2
      rw [StableHlo.binary_result_ne]
      · exact ((dat2 (V7 m ρ) c).arrAt_in 0 rfl _).trans (A_eq2 (V7 m ρ) c 0)
      · decide
    | ⟨1, _⟩ =>
      show (dat2 (V7 m ρ) c).arrAt 1 cfg2.N = prodOp2.result (W7 m ρ c) (Proc.devRef .tc main_arg6)
      unfold prodOp2
      rw [StableHlo.binary_result_ne]
      · exact ((dat2 (V7 m ρ) c).arrAt_in 1 rfl _).trans (A_eq2 (V7 m ρ) c 1)
      · decide
    | ⟨2, _⟩ =>
      show (dat2 (V7 m ρ) c).arrAt 2 cfg2.N = prodOp2.result (W7 m ρ c) (Proc.devRef .tc main_v64)
      unfold prodOp2
      rw [StableHlo.binary_result]
      exact Tiles.value2 (V7 m ρ) c
    | ⟨_ + 3, h⟩ => exact absurd h (Nat.not_lt.2 (Nat.le_add_left _ _))
  · unfold W8 Pipeline.withArrays
    rw [dif_neg h]
    exact (HloOp.result_of_not_mem _ _ (by
      show b ∉ ({Proc.devRef .tc _} : Finset (DevRef τ sig))
      rw [Finset.mem_singleton]
      exact fun e => h ⟨2, e.symm⟩)).symm

/-- THE END OF @main, as host operations only: the last boundary's contents are the launch contents after the host
    stretches in order, with a host product standing where each pallas_call stood. -/
theorem W9_nested (c : Dev nD) :
    W9 m ρ c = StableHlo.after hostOps3 (prodOp2.result (StableHlo.after hostOps2 (prodOp1.result (StableHlo.after hostOps1
      (prodOp0.result (StableHlo.after hostOps0_2 (StableHlo.after whereOps (StableHlo.after hostOps0 (W0 m ρ c))))))))) := by
  show StableHlo.after hostOps3 (W8 m ρ c) = _
  rw [exit2]
  show StableHlo.after hostOps3 (prodOp2.result (StableHlo.after hostOps2 (W6 m ρ c))) = _
  rw [exit1]
  show StableHlo.after hostOps3 (prodOp2.result (StableHlo.after hostOps2 (prodOp1.result (StableHlo.after hostOps1 (W4 m ρ c))))) = _
  rw [exit0, ← whereOps_eq]

end Cert.KernelIdeal.Whole

end
-- ==== Proof.Bridge.lean ====
/-
  The two programs' results are one function of the arguments.

  Both programs compute, three times over, `aggregate (features · weight) + bias`, where `aggregate` gathers the rows of
  a matrix along the edges' sources (self loops appended), scales row `e` by the symmetric degree normalisation
  `deg^(-1/2)[source e] · deg^(-1/2)[target e]` and adds it into row `target e`; the second and third layers read the
  first layer's output.  The reference forms each product `features · weight` by the host's `dot_general`; the kernel
  program by a pallas_call that tiles the node axis — and the array such a call leaves is that same whole product
  (the tiles add up to it), so the buffer contents at the end of the kernel's @main are those of host operations only,
  a `dot_general` standing where each call stood.  Read at a result buffer, that fold is the SAME composition of the
  same host operations of the argument arrays as the reference's: nothing of the gathers, the scatter-adds or the
  normalisation is opened, and no law of arithmetic is used beyond the tiles' sum being the product's sum — so the
  equality holds for every extended-real input, finite or not.
-/
import proofs.«149168_j11441792877014_1_alg».proof.Proof.Exits
import proofs.«149168_j11441792877014_1_alg».proof.Proof.RefRun
import Idealize.ShloMosaic.Lib.StableHlo.Run

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.KernelIdeal.Whole

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

set_option maxHeartbeats 40000000 in
/-- The first result (`m`, the second layer's output): the kernel program's buffer at the end of @main holds the
    reference's composed term of arguments that agree. -/
theorem out0_eq (c : Dev nD) (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    W9 m ρ c (Proc.devRef .tc main_v63) = Cert.ReferenceIdeal.ValueP.res_main_v63 m' c := by
  rw [W9_nested]
  simp only [hostOps0, whereOps, hostOps0_2, hostOps1, hostOps2, hostOps3, prodOp0, prodOp1, prodOp2]
  after_results_simp
  unfold Cert.ReferenceIdeal.ValueP.res_main_v63
  rw [h0, h1, h2, h3, h4, h5]
  rfl

set_option maxHeartbeats 40000000 in
/-- The second result (`s`, the third layer's output), likewise. -/
theorem out1_eq (c : Dev nD) (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7)) :
    W9 m ρ c (Proc.devRef .tc main_v80) = Cert.ReferenceIdeal.ValueP.res_main_v80 m' c := by
  rw [W9_nested]
  simp only [hostOps0, whereOps, hostOps0_2, hostOps1, hostOps2, hostOps3, prodOp0, prodOp1, prodOp2]
  after_results_simp
  unfold Cert.ReferenceIdeal.ValueP.res_main_v80
  rw [h0, h1, h2, h3, h6, h7]
  rfl

end Cert.Bridge

end
-- ==== Proof.lean ====
/-
  Three stacked graph-convolution layers: the kernel program against its reference.

  Each layer is `aggregate (features · weight) + bias`: the rows of the product are gathered along the edges' sources
  (self loops appended), row `e` is scaled by `deg^(-1/2)[source e] · deg^(-1/2)[target e]` and added into row
  `target e`; the first layer reads the node features, the second and third read the first layer's output, and the two
  results are the second and third layers' outputs.  The two programs run the same host operations for everything but
  the three products: the reference forms a product by the host's `dot_general`, the kernel program by a pallas_call
  over ten row blocks of 10000 nodes, each block multiplied (after a rounding to bf16, the identity over the extended
  reals) into a zero accumulator.

  Over the extended reals a product into a zero accumulator is the plain sum `∑ k, x (r, k) · w (k, q)`, which is also
  the `dot_general`'s entry; row block `t` of the call's result is therefore row block `t` of the whole product, the ten
  blocks tile the result, and the array the call leaves is the whole product (Tiles0, Tiles1, Tiles2).  A call changes
  no other buffer, so the kernel program's buffers at the end of @main are those of host operations only, a product
  standing where each call stood (Exits), and read at a result buffer that is the reference's composed term of the
  arguments (Bridge).  No distributivity or cancellation is used, so finiteness of the inputs is never opened.

  The frames are the generated ones (the reference's is its run with the results dropped); the idealization rewrote
  nothing, so `preserves` is trivial.
-/
import proofs.«149168_j11441792877014_1_alg».proof.Defs
import proofs.«149168_j11441792877014_1_alg».proof.Proof.Gen.Kernel
import proofs.«149168_j11441792877014_1_alg».proof.Proof.Gen.Kernel.Skeleton
import proofs.«149168_j11441792877014_1_alg».proof.Proof.Gen.Kernel.Launch
import proofs.«149168_j11441792877014_1_alg».proof.Proof.Gen.Kernel.Points
import proofs.«149168_j11441792877014_1_alg».proof.Proof.Gen.Kernel.Frame
import proofs.«149168_j11441792877014_1_alg».proof.Proof.Gen.KernelIdeal
import proofs.«149168_j11441792877014_1_alg».proof.Proof.Gen.KernelIdeal.Skeleton
import proofs.«149168_j11441792877014_1_alg».proof.Proof.Gen.KernelIdeal.Launch
import proofs.«149168_j11441792877014_1_alg».proof.Proof.Gen.KernelIdeal.Points
import proofs.«149168_j11441792877014_1_alg».proof.Proof.Gen.KernelIdeal.Frame
import proofs.«149168_j11441792877014_1_alg».proof.Proof.Gen.ReferenceIdeal
import proofs.«149168_j11441792877014_1_alg».proof.Proof.Gen.Pre_finite_inputs
import proofs.«149168_j11441792877014_1_alg».proof.Proof.RunK
import proofs.«149168_j11441792877014_1_alg».proof.Proof.RefRun
import proofs.«149168_j11441792877014_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories agreeing on the arguments both idealized programs end with the same two results: each result buffer
    of the kernel program ends at the last boundary's contents, which is the reference's composed term. -/
theorem algebraic : Cert.algebraic_KernelIdeal_ReferenceIdeal := by
  intro m ρ m' ρ' _ hagree
  refine ⟨fun c => Cert.KernelIdeal.Gen.W9 m ρ c (Proc.devRef .tc Cert.KernelIdeal.main_v63),
    fun c => Cert.KernelIdeal.Gen.W9 m ρ c (Proc.devRef .tc Cert.KernelIdeal.main_v80), ?_, ?_⟩
  · exact (θ_run Cert.KernelIdeal.defs _ _).mono (fun r h c =>
      ⟨h c Cert.KernelIdeal.main_v63 (by decide), h c Cert.KernelIdeal.main_v80 (by decide),
       (h c Cert.KernelIdeal.main_arg0 (by decide)).trans (Cert.KernelIdeal.Gen.W9_main_arg0 m ρ c),
       (h c Cert.KernelIdeal.main_arg1 (by decide)).trans (Cert.KernelIdeal.Gen.W9_main_arg1 m ρ c),
       (h c Cert.KernelIdeal.main_arg2 (by decide)).trans (Cert.KernelIdeal.Gen.W9_main_arg2 m ρ c),
       (h c Cert.KernelIdeal.main_arg3 (by decide)).trans (Cert.KernelIdeal.Gen.W9_main_arg3 m ρ c),
       (h c Cert.KernelIdeal.main_arg4 (by decide)).trans (Cert.KernelIdeal.Gen.W9_main_arg4 m ρ c),
       (h c Cert.KernelIdeal.main_arg5 (by decide)).trans (Cert.KernelIdeal.Gen.W9_main_arg5 m ρ c),
       (h c Cert.KernelIdeal.main_arg6 (by decide)).trans (Cert.KernelIdeal.Gen.W9_main_arg6 m ρ c),
       (h c Cert.KernelIdeal.main_arg7 (by decide)).trans (Cert.KernelIdeal.Gen.W9_main_arg7 m ρ c)⟩)
      (Cert.KernelIdeal.Whole.run_all m ρ)
  · refine (θ_run Cert.ReferenceIdeal.defs _ _).mono (fun r h c => ?_) (Cert.ReferenceIdeal.ValueP.run (F := Ideal) m' ρ')
    obtain ⟨h0, h1, h2, h3, h4, h5, h6, h7⟩ := hagree c
    exact ⟨(h c).1.trans (Cert.Bridge.out0_eq m ρ m' c h0 h1 h2 h3 h4 h5).symm,
      (h c).2.1.trans (Cert.Bridge.out1_eq m ρ m' c h0 h1 h2 h3 h6 h7).symm, (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
